-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x256 : Shape := ⟨2, ![128, 256]⟩
abbrev S40x128 : Shape := ⟨2, ![40, 128]⟩
abbrev S40 : Shape := ⟨1, ![40]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40x128 .f32) (main_arg5 : FVec F S40 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S40x128 .f32 := Host.absf main_arg4
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x256 .f32) (main_arg3 : FVec F S128x256 .f32) (main_arg4 : FVec F S40x128 .f32) (main_arg5 : FVec F S40 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x256 : Shape := ⟨2, ![128, 256]⟩
abbrev S40x128 : Shape := ⟨2, ![40, 128]⟩
abbrev S40 : Shape := ⟨1, ![40]⟩
abbrev S1x40 : Shape := ⟨2, ![1, 40]⟩
abbrev S8x40 : Shape := ⟨2, ![8, 40]⟩
abbrev S10000x40 : Shape := ⟨2, ![10000, 40]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x128 : Shape := ⟨2, ![128, 128]⟩
abbrev S400x40 : Shape := ⟨2, ![400, 40]⟩
abbrev S128x40 : Shape := ⟨2, ![128, 40]⟩

abbrev nBuf : Space → Nat
  | .hbm => 10
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S128x256, .f32⟩
  | .hbm, ⟨4, _⟩ => ⟨S40x128, .f32⟩
  | .hbm, ⟨5, _⟩ => ⟨S40, .f32⟩
  | .hbm, ⟨6, _⟩ => ⟨S10000x128, .f32⟩
  | .hbm, ⟨7, _⟩ => ⟨S1x40, .f32⟩
  | .hbm, ⟨8, _⟩ => ⟨S8x40, .f32⟩
  | .hbm, ⟨9, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S400x128, .f32⟩
  | .local _ .vmem, ⟨5, _⟩ => ⟨S400x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S128x256, .f32⟩
  | .local _ .vmem, ⟨10, _⟩ => ⟨S40x128, .f32⟩
  | .local _ .vmem, ⟨11, _⟩ => ⟨S8x40, .f32⟩
  | .local _ .vmem, ⟨12, _⟩ => ⟨S400x40, .f32⟩
  | .local _ .vmem, ⟨13, _⟩ => ⟨S400x40, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_5 : Index := 0#32
  ![v11.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S40_S1x40 : S40.ShapeCasts S1x40
  bcast_S1x40_S8x40_0_1 : S1x40.BroadcastsInDim S8x40 (![0, 1] : Fin 2 → Fin S8x40.rank)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  broadcasts_S400x1_S400x128 : S400x1.Broadcasts S400x128
  h_S400x128 : 0 < S400x128.numel
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  transposes_S128x128_p1_0_S128x128 : S128x128.Transposes [1, 0] S128x128
  slices_S128x256_o0_128_S128x128 : S128x256.Slices ![0, 128] S128x128
  reduces_S400x128_S400 : S400x128.Reduces [1] S400
  inb_S400x128_S400x128_0_0 : ∀ a, (![0, 0] : Fin 2 → Nat) a + S400x128.size a ≤ S400x128.size a
  shapeCasts_S10000x128_S10000x128 : S10000x128.ShapeCasts S10000x128
  shapeCasts_S400x128_S400x128 : S400x128.ShapeCasts S400x128
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S8x40_S1x40_0_0 : ∀ a, (![0, 0] : Fin 2 → Nat) a + S1x40.size a ≤ S8x40.size a
  h_S1x40 : 0 < S1x40.numel
  shapeCasts_S1x40_S1x40 : S1x40.ShapeCasts S1x40
  broadcasts_S1x40_S400x40 : S1x40.Broadcasts S400x40
  inb_S400x40_S400x40_0_0 : ∀ a, (![0, 0] : Fin 2 → Nat) a + S400x40.size a ≤ S400x40.size a
  h_S400x40 : 0 < S400x40.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hrank1 : 0 < grid1.rank
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x128.size a ≤ S40x128.size a
  hwx1_3 : ∀ i : grid1.Coords, EltTy.bits .f32 = 32 ∨ (Rect.block (s := S40x128) S40x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x40.size a ≤ S8x40.size a
  hwx1_4 : ∀ i : grid1.Coords, EltTy.bits .f32 = 32 ∨ (Rect.block (s := S8x40) S8x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x40.size a ≤ S10000x40.size a
  hwx1_5 : ∀ i : grid1.Coords, EltTy.bits .f32 = 32 ∨ (Rect.block (s := S10000x40) S400x40.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S40x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S8x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S400x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x256 : Shape := ⟨2, ![128, 256]⟩
abbrev S40x128 : Shape := ⟨2, ![40, 128]⟩
abbrev S40 : Shape := ⟨1, ![40]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S128x40 : Shape := ⟨2, ![128, 40]⟩
abbrev S10000x40 : Shape := ⟨2, ![10000, 40]⟩
abbrev S1x40 : Shape := ⟨2, ![1, 40]⟩

abbrev nBuf : Space → Nat
  | .hbm => 48
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S128x256, .f32⟩
  | .hbm, ⟨4, _⟩ => ⟨S40x128, .f32⟩
  | .hbm, ⟨5, _⟩ => ⟨S40, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S10000x128, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x256, .f32⟩
  | .hbm, ⟨16, _⟩ => ⟨S256x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x128, .f32⟩
  | .hbm, ⟨35, _⟩ => ⟨S_, .f32⟩
  | .hbm, ⟨36, _⟩ => ⟨S10000x1, .f32⟩
  | .hbm, ⟨37, _⟩ => ⟨S10000x1, .f32⟩
  | .hbm, ⟨38, _⟩ => ⟨S10000x128, .f32⟩
  | .hbm, ⟨39, _⟩ => ⟨S10000x128, .f32⟩
  | .hbm, ⟨40, _⟩ => ⟨S10000x256, .f32⟩
  | .hbm, ⟨41, _⟩ => ⟨S256x128, .f32⟩
  | .hbm, ⟨42, _⟩ => ⟨S10000x128, .f32⟩
  | .hbm, ⟨43, _⟩ => ⟨S128x40, .f32⟩
  | .hbm, ⟨44, _⟩ => ⟨S10000x40, .f32⟩
  | .hbm, ⟨45, _⟩ => ⟨S1x40, .f32⟩
  | .hbm, ⟨46, _⟩ => ⟨S10000x40, .f32⟩
  | .hbm, ⟨47, _⟩ => ⟨S10000x40, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  reducesTo_S10000x128_S10000_d1 : S10000x128.ReducesTo [1] S10000
  transposes_S40x128_S128x40_1_0 : S40x128.Transposes [1, 0] S128x40
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x128_S128x40_S10000x40_1_0_0_1_n_n_wf : DotDims.WF S10000x128 S128x40 S10000x40 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.Found.lean ====
/-
  What each kernel body leaves in its output block, as a value.

  Both bodies make one store that covers the whole output block, so the block ends holding that store's value:
  the body's arithmetic applied to what its loads read. The loads read the staged blocks whole, except one:
  the node's own rows, 400 consecutive rows of the resident feature matrix starting at row `400 · i` of grid
  point `i`; the second body also reads only the first row of the 8-row bias block.
-/
import proofs.«108312_g26362509263551_cont_9to1_631_7_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- The node's own rows as the first body loads them: rows `400 · i` onwards of the feature matrix `x`. -/
abbrev ownRows0 (i : grid0.Coords) (x : Vec F S10000x128 .f32) : Vec F S400x128 .f32 :=
  View.ld x (Rect.unit (s := S10000x128) (k0_off1 i) S400x128.size (k0_off1_inb i))

/-- The first body leaves, in the output block, its arithmetic of the adjacency block `x0`, the feature matrix
    `x1`, the node's own rows of it, and the weights `x2`. -/
theorem out0_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x256 .f32) (h3 : a3.IsWhole)
    (a4 : Memref sig .tc .vmem S400x128 .f32) (h4 : a4.IsWhole)
    (x0 : Vec F S400x10000 .f32) (x1 : Vec F S10000x128 .f32) (x2 : Vec F S128x256 .f32) :
    out0_A_3 c i a1 h1 a2 h2 a3 h3 a4 h4 x0 x1 x2 = k0_pay1 x0 x1 (ownRows0 i x1) x2 := by
  unfold out0_A_3
  rw [View.read_writes_eq_canon _ _ _ (cover0_A_3 c i a1 h1 a2 h2 a3 h3 a4 h4 x0 x1 x2)]
  unfold kernelRun0_A
  dsimp only
  rw [View.canon_unit_zero hz]
  simp only [View.readAt_eq_ld, h1.read_unread, h2.read_unread, h3.read_unread, View.ld_unit_zero (S := S400x10000) hz,
    View.ld_unit_zero (S := S10000x128) hz, View.ld_unit_zero (S := S128x256) hz]

/-- The node's own rows as the second body loads them, from the hidden features `x`. -/
abbrev ownRows1 (i : grid1.Coords) (x : Vec F S10000x128 .f32) : Vec F S400x128 .f32 :=
  View.ld x (Rect.unit (s := S10000x128) (k1_off1 i) S400x128.size (k1_off1_inb i))

/-- The first row of the 8-row bias block, as the second body loads it. -/
abbrev biasRow (x : Vec F S8x40 .f32) : Vec F S1x40 .f32 :=
  View.ld x (Rect.unit (s := S8x40) ![0, 0] S1x40.size inb_S8x40_S1x40_0_0)

/-- The second body leaves, in the output block, its arithmetic of the adjacency block, the hidden features, the
    node's own rows of them, the two weight matrices and the bias row. -/
theorem out1_eq (c : Dev nD) (i : grid1.Coords) (a1 : Memref sig .tc .vmem S400x10000 .f32) (h1 : a1.IsWhole)
    (a2 : Memref sig .tc .vmem S10000x128 .f32) (h2 : a2.IsWhole) (a3 : Memref sig .tc .vmem S128x256 .f32) (h3 : a3.IsWhole)
    (a4 : Memref sig .tc .vmem S40x128 .f32) (h4 : a4.IsWhole) (a5 : Memref sig .tc .vmem S8x40 .f32) (h5 : a5.IsWhole)
    (a6 : Memref sig .tc .vmem S400x40 .f32) (h6 : a6.IsWhole)
    (x0 : Vec F S400x10000 .f32) (x1 : Vec F S10000x128 .f32) (x2 : Vec F S128x256 .f32) (x3 : Vec F S40x128 .f32)
    (x4 : Vec F S8x40 .f32) :
    out1_A_5 c i a1 h1 a2 h2 a3 h3 a4 h4 a5 h5 a6 h6 x0 x1 x2 x3 x4
      = k1_pay1 x0 x1 (ownRows1 i x1) x2 x3 (biasRow x4) := by
  unfold out1_A_5
  rw [View.read_writes_eq_canon _ _ _ (cover1_A_5 c i a1 h1 a2 h2 a3 h3 a4 h4 a5 h5 a6 h6 x0 x1 x2 x3 x4)]
  unfold kernelRun1_A
  dsimp only
  rw [View.canon_unit_zero hz]
  simp only [View.readAt_eq_ld, h1.read_unread, h2.read_unread, h3.read_unread, h4.read_unread, h5.read_unread,
    View.ld_unit_zero (S := S400x10000) hz, View.ld_unit_zero (S := S10000x128) hz, View.ld_unit_zero (S := S128x256) hz,
    View.ld_unit_zero (S := S40x128) hz]

end Cert.KernelIdeal.Found

end
-- ==== Proof.Blocks.lean ====
/-
  Where each block sits in its array.

  Both launches run over 25 grid points; point `t` handles the 400 nodes `400 · t … 400 · t + 399`. Its adjacency
  block is those 400 rows of the adjacency matrix, its output block those 400 rows of the output; the feature
  matrix, the weights and the bias block are staged whole at every point; and the rows the body loads as the
  nodes' own features are rows `400 · t + p` of the resident feature matrix.
-/
import proofs.«108312_g26362509263551_cont_9to1_631_7_alg».proof.Proof.Found
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Found

variable {F : FTy → Type} [FloatOps F]
variable (V : (c : Dev nD) → (b : Ref sig .tc) → Buf (Elt F) ((c : Thread nD τ).loc b))

/-- Node `p` of grid point `t`: row `400 · t + p`. -/
def node0 (t : Fin cfg0.N) (p : Fin 400) : Fin 10000 :=
  ⟨400 * t.val + p.val, by have := t.isLt; have hN : cfg0.N = 25 := N_0; have := p.isLt; omega⟩
def node1 (t : Fin cfg1.N) (p : Fin 400) : Fin 10000 :=
  ⟨400 * t.val + p.val, by have := t.isLt; have hN : cfg1.N = 25 := N_1; have := p.isLt; omega⟩

/-- The printed index maps and the body's own row offset, decided over the 25 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ k0_off1 (grid0.coords t) (0 : Fin 2) = 400 * t.val ∧ k0_off1 (grid0.coords t) (1 : Fin 2) = 0 :=
  (by decide +kernel : ∀ t : Fin grid0.N, _)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ k1_off1 (grid1.coords t) (0 : Fin 2) = 400 * t.val ∧ k1_off1 (grid1.coords t) (1 : Fin 2) = 0 :=
  (by decide +kernel : ∀ t : Fin grid1.N, _)

/-! ## The first launch -/

/-- The adjacency block of point `t`, at node `p`, is row `400 · t + p` of the adjacency matrix. -/
theorem adj0 (c : Dev nD) (t : Fin cfg0.N) (p : Fin 400) (j : Fin 10000) :
    (iblk0 V c 0 t : Vec F S400x10000 .f32) (ix2 p j) = (V c main_arg0 : Vec F S10000x10000 .f32) (ix2 (node0 t p) j) := by
  obtain ⟨e0, e1, -⟩ := idx_facts0 t
  unfold iblk0
  rw [View.read_apply]
  show V c main_arg0 (((cfg0.win 0).blk t).view.emb (ix2 p j)) = V c main_arg0 (ix2 (node0 t p) j)
  refine congrArg (V c main_arg0) (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * j.val = j.val; omega

/-- The feature matrix is staged whole. -/
theorem feat0 (c : Dev nD) (t : Fin cfg0.N) : (iblk0 V c 1 t : Vec F S10000x128 .f32) = V c main_arg1 := by
  obtain ⟨-, -, e0, e1, -⟩ := idx_facts0 t
  funext y
  unfold iblk0
  rw [View.read_apply]
  show V c main_arg1 (((cfg0.win 1).blk t).view.emb y) = V c main_arg1 y
  refine congrArg (V c main_arg1) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The first layer's weights are staged whole. -/
theorem wts0 (c : Dev nD) (t : Fin cfg0.N) : (iblk0 V c 2 t : Vec F S128x256 .f32) = V c main_arg2 := by
  obtain ⟨-, -, -, -, e0, e1, -⟩ := idx_facts0 t
  funext y
  unfold iblk0
  rw [View.read_apply]
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The nodes' own rows: row `p` of what the body loads is row `400 · t + p` of the feature matrix. -/
theorem own0 (t : Fin cfg0.N) (x : Vec F S10000x128 .f32) (p : Fin 400) (k : Fin 128) :
    ownRows0 (grid0.coords t) x (ix2 p k) = x (ix2 (node0 t p) k) := by
  obtain ⟨-, -, -, -, -, -, -, -, e0, e1⟩ := idx_facts0 t
  show x ((Rect.unit (s := S10000x128) (k0_off1 (grid0.coords t)) S400x128.size (k0_off1_inb (grid0.coords t))).idx (ix2 p k)) = _
  refine congrArg x (funext fun a => Fin.ext ?_)
  match a with
  | ⟨0, _⟩ => show k0_off1 (grid0.coords t) (0 : Fin 2) + 1 * p.val = 400 * t.val + p.val; omega
  | ⟨1, _⟩ => show k0_off1 (grid0.coords t) (1 : Fin 2) + 1 * k.val = k.val; omega

/-- The output block of point `t`, at node `p`, sits at row `400 · t + p` of the hidden features. -/
theorem outIdx0 (t : Fin cfg0.N) (p : Fin 400) (o : Fin 128) :
    ((cfg0.win 3).blk t).view.emb (ix2 p o) = (ix2 (node0 t p) o : S10000x128.Idx) := by
  obtain ⟨-, -, -, -, -, -, e0, e1, -⟩ := idx_facts0 t
  refine funext fun a => Fin.ext ?_
  match a with
  | ⟨0, _⟩ => show win0_3.index t (0 : Fin 2) * 400 + 1 * p.val = 400 * t.val + p.val; omega
  | ⟨1, _⟩ => show win0_3.index t (1 : Fin 2) * 128 + 1 * o.val = o.val; omega

/-! ## The second launch -/

/-- The adjacency block of point `t`, at node `p`, is row `400 · t + p` of the adjacency matrix. -/
theorem adj1 (c : Dev nD) (t : Fin cfg1.N) (p : Fin 400) (j : Fin 10000) :
    (iblk1 V c 0 t : Vec F S400x10000 .f32) (ix2 p j) = (V c main_arg0 : Vec F S10000x10000 .f32) (ix2 (node1 t p) j) := by
  obtain ⟨e0, e1, -⟩ := idx_facts1 t
  unfold iblk1
  rw [View.read_apply]
  show V c main_arg0 (((cfg1.win 0).blk t).view.emb (ix2 p j)) = V c main_arg0 (ix2 (node1 t p) j)
  refine congrArg (V c main_arg0) (funext fun a => Fin.ext ?_)
  match a with
  | ⟨0, _⟩ => show win1_0.index t (0 : Fin 2) * 400 + 1 * p.val = 400 * t.val + p.val; omega
  | ⟨1, _⟩ => show win1_0.index t (1 : Fin 2) * 10000 + 1 * j.val = j.val; omega

/-- The hidden features (the first launch's output) are staged whole. -/
theorem feat1 (c : Dev nD) (t : Fin cfg1.N) : (iblk1 V c 1 t : Vec F S10000x128 .f32) = V c main_call0_v0 := by
  obtain ⟨-, -, e0, e1, -⟩ := idx_facts1 t
  funext y
  unfold iblk1
  rw [View.read_apply]
  show V c main_call0_v0 (((cfg1.win 1).blk t).view.emb y) = V c main_call0_v0 y
  refine congrArg (V c main_call0_v0) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The second layer's weights are staged whole. -/
theorem wts1 (c : Dev nD) (t : Fin cfg1.N) : (iblk1 V c 2 t : Vec F S128x256 .f32) = V c main_arg3 := by
  obtain ⟨-, -, -, -, e0, e1, -⟩ := idx_facts1 t
  funext y
  unfold iblk1
  rw [View.read_apply]
  show V c main_arg3 (((cfg1.win 2).blk t).view.emb y) = V c main_arg3 y
  refine congrArg (V c main_arg3) (funext fun a => Fin.ext ?_)
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- The classifier's weights are staged whole. -/
theorem clw1 (c : Dev nD) (t : Fin cfg1.N) : (iblk1 V c 3 t : Vec F S40x128 .f32) = V c main_arg4 := by
  obtain ⟨-, -, -, -, -, -, e0, e1, -⟩ := idx_facts1 t
  funext y
  unfold iblk1
  rw [View.read_apply]
  show V c main_arg4 (((cfg1.win 3).blk t).view.emb y) = V c main_arg4 y
  refine congrArg (V c main_arg4) (funext fun a => Fin.ext ?_)
  match a with
  | ⟨0, _⟩ => show win1_3.index t (0 : Fin 2) * 40 + 1 * (y 0).val = (y 0).val; omega
  | ⟨1, _⟩ => show win1_3.index t (1 : Fin 2) * 128 + 1 * (y 1).val = (y 1).val; omega

/-- The 8-row bias block is staged whole. -/
theorem clb1 (c : Dev nD) (t : Fin cfg1.N) : (iblk1 V c 4 t : Vec F S8x40 .f32) = V c main_call0_v2 := by
  obtain ⟨-, -, -, -, -, -, -, -, e0, e1, -⟩ := idx_facts1 t
  funext y
  unfold iblk1
  rw [View.read_apply]
  show V c main_call0_v2 (((cfg1.win 4).blk t).view.emb y) = V c main_call0_v2 y
  refine congrArg (V c main_call0_v2) (funext fun a => Fin.ext ?_)
  match a with
  | ⟨0, _⟩ => show win1_4.index t (0 : Fin 2) * 8 + 1 * (y 0).val = (y 0).val; omega
  | ⟨1, _⟩ => show win1_4.index t (1 : Fin 2) * 40 + 1 * (y 1).val = (y 1).val; omega

/-- The nodes' own rows: row `p` of what the body loads is row `400 · t + p` of the hidden features. -/
theorem own1 (t : Fin cfg1.N) (x : Vec F S10000x128 .f32) (p : Fin 400) (k : Fin 128) :
    ownRows1 (grid1.coords t) x (ix2 p k) = x (ix2 (node1 t p) k) := by
  obtain ⟨-, -, -, -, -, -, -, -, -, -, -, -, e0, e1⟩ := idx_facts1 t
  show x ((Rect.unit (s := S10000x128) (k1_off1 (grid1.coords t)) S400x128.size (k1_off1_inb (grid1.coords t))).idx (ix2 p k)) = _
  refine congrArg x (funext fun a => Fin.ext ?_)
  match a with
  | ⟨0, _⟩ => show k1_off1 (grid1.coords t) (0 : Fin 2) + 1 * p.val = 400 * t.val + p.val; omega
  | ⟨1, _⟩ => show k1_off1 (grid1.coords t) (1 : Fin 2) + 1 * k.val = k.val; omega

/-- The bias row the body loads is row 0 of the bias block. -/
theorem bias1 (x : Vec F S8x40 .f32) (c' : Fin 40) :
    biasRow x (ix2 (0 : Fin 1) c') = x (ix2 (0 : Fin 8) c') := by
  show x ((Rect.unit (s := S8x40) ![0, 0] S1x40.size inb_S8x40_S1x40_0_0).idx (ix2 (0 : Fin 1) c')) = _
  refine congrArg x (funext fun a => Fin.ext ?_)
  match a with
  | ⟨0, _⟩ => rfl
  | ⟨1, _⟩ => show 0 + 1 * c'.val = c'.val; omega

/-- The output block of point `t`, at node `p`, sits at row `400 · t + p` of the class scores. -/
theorem outIdx1 (t : Fin cfg1.N) (p : Fin 400) (c' : Fin 40) :
    ((cfg1.win 5).blk t).view.emb (ix2 p c') = (ix2 (node1 t p) c' : S10000x40.Idx) := by
  obtain ⟨-, -, -, -, -, -, -, -, -, -, e0, e1, -⟩ := idx_facts1 t
  refine funext fun a => Fin.ext ?_
  match a with
  | ⟨0, _⟩ => show win1_5.index t (0 : Fin 2) * 400 + 1 * p.val = 400 * t.val + p.val; omega
  | ⟨1, _⟩ => show win1_5.index t (1 : Fin 2) * 40 + 1 * c'.val = c'.val; omega

end Cert.KernelIdeal.Blocks

end
-- ==== Proof.Spec.lean ====
/-
  Two GraphSAGE layers and a linear classifier over a dense adjacency matrix, stated once over the extended
  reals, row by row.

  For a node with adjacency row `a` (its edge weights to every node), the feature matrix `Fe` of all nodes and
  its own feature row `f`:
    * the degree is `∑ⱼ aⱼ`, the aggregate of feature `k` is `∑ⱼ aⱼ · Fe[j,k]`, and the neighbourhood mean is
      their quotient with one added to the degree;
    * a layer with weights `W` (128 outputs, 256 inputs: the first 128 columns act on the node's own features,
      the last 128 on the neighbourhood mean) gives `∑ₖ fₖ · W[o,k] + ∑ₖ meanₖ · W[o,128+k]`;
    * the hidden layer clips that at zero and divides the row by its Euclidean norm, the norm kept above a
      small positive constant;
    * the classifier is `∑ₒ zₒ · CW[c,o] + b_c` of the second layer's row `z`.
  The one law used between two arrangements of a layer is that a sum over 256 indices is the sum over its first
  128 plus the sum over its last 128 (`sum_halves`): a law of a commutative additive monoid, valid at the
  infinities too.
-/
import Idealize.ShloMosaic.PureOps.Ideal
import Idealize.ShloMosaic.Lib.ValueIdx
import Mathlib.Algebra.BigOperators.Fin

noncomputable section

namespace Cert.Sage

open Idealize.ShloMosaic Idealize.ShloMosaic.ValueIdx

/-- A rank-2 array of extended reals with literal extents. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- The f32 words the two programs share, kept as words: `+0.0`, `1.0`, and the norm's floor (f32 of 1e-12). -/
abbrev zero : EReal := Ideal.ofBits .f32 0x00000000#32
abbrev one : EReal := Ideal.ofBits .f32 0x3F800000#32
abbrev eps : EReal := Ideal.ofBits .f32 0x2B8CBCCC#32

/-- Column `k` of the first half of a 256-wide row, and of the second half. -/
abbrev lo (k : Fin 128) : Fin 256 := ⟨k.val, by omega⟩
abbrev hi (k : Fin 128) : Fin 256 := ⟨128 + k.val, by omega⟩

/-- A sum over 256 indices is the sum over the first 128 plus the sum over the last 128. -/
theorem sum_halves {M : Type*} [AddCommMonoid M] (g : Fin 256 → M) :
    ∑ k : Fin 256, g k = ∑ k : Fin 128, g (lo k) + ∑ k : Fin 128, g (hi k) := by
  have h := Fin.sum_univ_add (a := 128) (b := 128) (f := g)
  refine h.trans ?_
  refine congrArg₂ (· + ·) (Finset.sum_congr rfl fun k _ => congrArg g (Fin.ext ?_))
    (Finset.sum_congr rfl fun k _ => congrArg g (Fin.ext ?_))
  · rfl
  · rfl

/-- The degree of a node: the sum of its adjacency row. -/
def degRow (a : Fin 10000 → EReal) : EReal := ∑ j : Fin 10000, a j

/-- Feature `k` aggregated over the node's neighbours. -/
def aggRow (a : Fin 10000 → EReal) (Fe : Arr2 10000 128) (k : Fin 128) : EReal :=
  ∑ j : Fin 10000, a j * Fe (ix2 j k)

/-- The neighbourhood mean: the aggregate over the degree plus one. -/
def meanRow (a : Fin 10000 → EReal) (Fe : Arr2 10000 128) (k : Fin 128) : EReal :=
  Ideal.div (aggRow a Fe k) (degRow a + one)

/-- One layer at output `o`: the own features through the first 128 columns of `W`, the neighbourhood mean
    through the last 128. -/
def linRow (a : Fin 10000 → EReal) (Fe : Arr2 10000 128) (f : Fin 128 → EReal) (W : Arr2 128 256) (o : Fin 128) : EReal :=
  (∑ k : Fin 128, f k * W (ix2 o (lo k))) + ∑ k : Fin 128, meanRow a Fe k * W (ix2 o (hi k))

/-- The layer clipped at zero. -/
def reluRow (a : Fin 10000 → EReal) (Fe : Arr2 10000 128) (f : Fin 128 → EReal) (W : Arr2 128 256) (o : Fin 128) : EReal :=
  max (linRow a Fe f W o) zero

/-- The hidden row: the clipped layer over its Euclidean norm, the norm kept above `eps`. -/
def hidRow (a : Fin 10000 → EReal) (Fe : Arr2 10000 128) (f : Fin 128 → EReal) (W : Arr2 128 256) (o : Fin 128) : EReal :=
  Ideal.div (reluRow a Fe f W o)
    (max (Ideal.sqrt (∑ o' : Fin 128, reluRow a Fe f W o' * reluRow a Fe f W o')) eps)

/-- The classifier's row: the second layer through `CW`, plus the bias. -/
def outRow (a : Fin 10000 → EReal) (Fe : Arr2 10000 128) (f : Fin 128 → EReal) (W : Arr2 128 256) (CW : Arr2 40 128)
    (b : Fin 40 → EReal) (c : Fin 40) : EReal :=
  (∑ o : Fin 128, linRow a Fe f W o * CW (ix2 c o)) + b c

/-- Row `i` of a matrix. -/
abbrev rowOf {n0 n1 : Nat} (A : Arr2 n0 n1) (i : Fin n0) : Fin n1 → EReal := fun j => A (ix2 i j)

/-- The hidden features of every node. -/
def hid (A : Arr2 10000 10000) (X : Arr2 10000 128) (W1 : Arr2 128 256) : Arr2 10000 128 :=
  fun j => hidRow (rowOf A (j 0)) X (rowOf X (j 0)) W1 (j 1)

/-- The class scores of every node. -/
def out (A : Arr2 10000 10000) (X : Arr2 10000 128) (W1 W2 : Arr2 128 256) (CW : Arr2 40 128) (CB : Arr1 40) : Arr2 10000 40 :=
  fun j => outRow (rowOf A (j 0)) (hid A X W1) (rowOf (hid A X W1) (j 0)) W2 CW (fun c => CB (ix1 c)) (j 1)

end Cert.Sage

end
-- ==== Proof.PayloadIsSpec.lean ====
/-
  Each of the two bodies' stored value, read at an index, is the specification's row function of the body's loads.

  Both bodies start alike. For row p of the adjacency block A and the feature matrix Fe, the lane sum of the row is
  the degree, the product A · Fe at (p, k) is the aggregate of feature k, and their quotient, one added to the degree
  and the column broadcast along the lanes, is the neighbourhood mean. The layer's weights W (128 outputs by 256
  inputs) are cut into their first and last 128 columns and each half transposed, so that the two products
  X · W₁ᵀ and mean · W₂ᵀ at (p, o) are the sums over k of X[p,k] · W[o,k] and mean[p,k] · W[o,128+k]: the
  specification's layer row. The first body clips that at zero and divides each row by its Euclidean norm, the norm
  kept above a small constant: the hidden row. The second body multiplies the layer by the transposed classifier
  weights and adds the bias row: the classifier's row.

  Every layout operation is read at an index by naming the operand's index and checking its coordinates; every
  contraction is a plain rows-by-columns product into the zero accumulator, read as a sum over the contracted
  coordinate. No arithmetic law of the extended reals is used: the two sides are the same sums of the same products.
-/
import proofs.«108312_g26362509263551_cont_9to1_631_7_alg».proof.Proof.Gen.KernelIdeal.Skeleton
import proofs.«108312_g26362509263551_cont_9to1_631_7_alg».proof.Proof.Spec
import Idealize.ShloMosaic.Lib.Pipeline.Value
import Idealize.ShloMosaic.Lib.ValueIdx
import Idealize.ShloMosaic.PureOps.Ideal.Laws
import Idealize.ShloMosaic.Lib.StackMember

noncomputable section

namespace Cert.KernelIdeal.PaySpec

open Idealize.ShloMosaic Idealize.SL.Sem Idealize.ShloMosaic.ValueIdx
open Cert.KernelIdeal Cert.KernelIdeal.Gen

/-! ## Layout and contraction reads -/

/-- A plain matrix product into the zero accumulator, read at (a, b): the sum over the contracted coordinate. -/
theorem matmul_plain_zero_apply {m k n : Nat} (prec : Option ContractPrecision)
    (A : FVec Ideal ⟨2, ![m, k]⟩ .f32) (B : FVec Ideal ⟨2, ![k, n]⟩ .f32) (a : Fin m) (b : Fin n) :
    matmul (F := Ideal) (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine (Ideal.dotGeneral_apply (DotDims.plain m k n) prec .single A B (ix2 a b)).symm.trans ?_
  exact StackMember.dotGeneral_plain_apply prec A B a b

/-- The three contractions of the two bodies are plain row-by-column products. -/
theorem dotA_eq : dot_S400x10000_S10000x128_S400x128_1_0_0_1_n_n = DotDims.plain 400 10000 128 := rfl
theorem dotB_eq : dot_S400x128_S128x128_S400x128_1_0_0_1_n_n = DotDims.plain 400 128 128 := rfl
theorem dotC_eq : dot_S400x128_S128x40_S400x40_1_0_0_1_n_n = DotDims.plain 400 128 40 := rfl

/-- The lane sum of a [400, 10000] block at row p. -/
theorem rowsum10000_apply (x : FVec Ideal S400x10000 .f32) (p : Fin 400) :
    multiReduction (F := Ideal) .add [1] S400 x 0x00000000#32 reduces_S400x10000_S400 (.inl rfl) rfl (ix1 p)
      = ∑ k : Fin 10000, x (ix2 p k) := by
  refine (Ideal.multiReduction_add_single x _ reduces_S400x10000_S400 (.inl rfl) rfl (ix1 p)).trans ?_
  refine Finset.sum_congr rfl fun k _ => congrArg x ?_
  funext a; match a with | ⟨0, _⟩ => rfl | ⟨1, _⟩ => rfl

/-- The lane sum of a [400, 128] block at row p. -/
theorem rowsum128_apply (x : FVec Ideal S400x128 .f32) (p : Fin 400) :
    multiReduction (F := Ideal) .add [1] S400 x 0x00000000#32 reduces_S400x128_S400 (.inl rfl) rfl (ix1 p)
      = ∑ k : Fin 128, x (ix2 p k) := by
  refine (Ideal.multiReduction_add_single x _ reduces_S400x128_S400 (.inl rfl) rfl (ix1 p)).trans ?_
  refine Finset.sum_congr rfl fun k _ => congrArg x ?_
  funext a; match a with | ⟨0, _⟩ => rfl | ⟨1, _⟩ => rfl

/-- A vector [400] viewed as a column [400, 1], read at (p, 0). -/
theorem col_apply {α : Type} (x : S400.Idx → α) (p : Fin 400) (z : Fin 1) :
    shapeCast S400x1 x shapeCasts_S400_S400x1 (ix2 p z) = x (ix1 p) := by
  refine shapeCast_apply x shapeCasts_S400_S400x1 (ix2 p z) (ix1 p) ?_
  rw [Shape.rowMajor_val_one, Shape.rowMajor_val_two]
  show p.val = p.val * 1 + z.val
  omega

/-- A [400, 1] column broadcast along 128 lanes, read at (p, o). -/
theorem lanes128_apply {α : Type} (x : S400x1.Idx → α) (p : Fin 400) (o : Fin 128) :
    broadcastTo S400x128 x broadcasts_S400x1_S400x128 (ix2 p o) = x (ix2 p (0 : Fin 1)) := by
  refine broadcastTo_apply x broadcasts_S400x1_S400x128 (ix2 p o) (ix2 p (0 : Fin 1)) fun a => ?_
  match a with
  | ⟨0, _⟩ => rfl
  | ⟨1, _⟩ => rfl

/-- The transposed first half of the layer's weights at (k, o): the weight of output o on own feature k. -/
theorem wlo_apply {α : Type} (W : S128x256.Idx → α) (k o : Fin 128) :
    transpose S128x128 [1, 0] (extractStridedSlice S128x128 ![0, 0] W slices_S128x256_o0_0_S128x128)
      transposes_S128x128_p1_0_S128x128 (ix2 k o) = W (ix2 o (Cert.Sage.lo k)) := by
  refine (transpose_apply [1, 0] _ transposes_S128x128_p1_0_S128x128 (ix2 k o) (ix2 o k) fun b => ?_).trans ?_
  · match b with
    | ⟨0, _⟩ => rfl
    | ⟨1, _⟩ => rfl
  · refine extractStridedSlice_apply ![0, 0] W slices_S128x256_o0_0_S128x128 (ix2 o k) (ix2 o (Cert.Sage.lo k)) fun a => ?_
    match a with
    | ⟨0, _⟩ => show o.val = 0 + o.val; omega
    | ⟨1, _⟩ => show k.val = 0 + k.val; omega

/-- The transposed second half of the layer's weights at (k, o): the weight of output o on mean feature k. -/
theorem whi_apply {α : Type} (W : S128x256.Idx → α) (k o : Fin 128) :
    transpose S128x128 [1, 0] (extractStridedSlice S128x128 ![0, 128] W slices_S128x256_o0_128_S128x128)
      transposes_S128x128_p1_0_S128x128 (ix2 k o) = W (ix2 o (Cert.Sage.hi k)) := by
  refine (transpose_apply [1, 0] _ transposes_S128x128_p1_0_S128x128 (ix2 k o) (ix2 o k) fun b => ?_).trans ?_
  · match b with
    | ⟨0, _⟩ => rfl
    | ⟨1, _⟩ => rfl
  · refine extractStridedSlice_apply ![0, 128] W slices_S128x256_o0_128_S128x128 (ix2 o k) (ix2 o (Cert.Sage.hi k)) fun a => ?_
    match a with
    | ⟨0, _⟩ => show o.val = 0 + o.val; omega
    | ⟨1, _⟩ => show 128 + k.val = 128 + k.val; rfl

/-- The transposed classifier weights at (o, c). -/
theorem cwT_apply {α : Type} (CW : S40x128.Idx → α) (o : Fin 128) (c : Fin 40) :
    transpose S128x40 [1, 0] CW transposes_S40x128_p1_0_S128x40 (ix2 o c) = CW (ix2 c o) := by
  refine transpose_apply [1, 0] CW transposes_S40x128_p1_0_S128x40 (ix2 o c) (ix2 c o) fun b => ?_
  match b with
  | ⟨0, _⟩ => rfl
  | ⟨1, _⟩ => rfl

/-- The bias row broadcast over the 400 rows, read at (p, c). -/
theorem bias_apply {α : Type} (b : S1x40.Idx → α) (p : Fin 400) (c : Fin 40) :
    broadcastTo S400x40 b broadcasts_S1x40_S400x40 (ix2 p c) = b (ix2 (0 : Fin 1) c) := by
  refine broadcastTo_apply b broadcasts_S1x40_S400x40 (ix2 p c) (ix2 (0 : Fin 1) c) fun a => ?_
  match a with
  | ⟨0, _⟩ => rfl
  | ⟨1, _⟩ => rfl

/-! ## The stages of the two bodies -/

/-- The neighbourhood-mean block: the adjacency block times the features, over the row sums plus one. -/
def meanBlk (A : FVec Ideal S400x10000 .f32) (Fe : FVec Ideal S10000x128 .f32) : FVec Ideal S400x128 .f32 :=
  divf (matmul dot_S400x10000_S10000x128_S400x128_1_0_0_1_n_n none A Fe (constant S400x128 .f32 0x00000000#32))
    (broadcastTo S400x128
      (addf (shapeCast S400x1 (multiReduction .add [1] S400 A 0x00000000#32 reduces_S400x10000_S400 (.inl rfl) rfl)
          shapeCasts_S400_S400x1)
        (broadcast S400x1 (Scalar.ofBits .f32 0x3F800000#32)))
      broadcasts_S400x1_S400x128)

/-- The layer block: own features through the first half of the weights plus the mean through the second half. -/
def linBlk (X Mn : FVec Ideal S400x128 .f32) (W : FVec Ideal S128x256 .f32) : FVec Ideal S400x128 .f32 :=
  addf
    (matmul dot_S400x128_S128x128_S400x128_1_0_0_1_n_n (some .fp32) X
      (transpose S128x128 [1, 0] (extractStridedSlice S128x128 ![0, 0] W slices_S128x256_o0_0_S128x128)
        transposes_S128x128_p1_0_S128x128)
      (constant S400x128 .f32 0x00000000#32))
    (matmul dot_S400x128_S128x128_S400x128_1_0_0_1_n_n (some .fp32) Mn
      (transpose S128x128 [1, 0] (extractStridedSlice S128x128 ![0, 128] W slices_S128x256_o0_128_S128x128)
        transposes_S128x128_p1_0_S128x128)
      (constant S400x128 .f32 0x00000000#32))

/-- A block over its rows' Euclidean norms, each norm kept above the floor. -/
def normBlk (R : FVec Ideal S400x128 .f32) : FVec Ideal S400x128 .f32 :=
  divf R
    (broadcastTo S400x128
      (maximumf
        (sqrt (shapeCast S400x1
          (multiReduction .add [1] S400 (mulf R R) 0x00000000#32 reduces_S400x128_S400 (.inl rfl) rfl)
          shapeCasts_S400_S400x1))
        (broadcast S400x1 (Scalar.ofBits .f32 0x2B8CBCCC#32)))
      broadcasts_S400x1_S400x128)

/-- The first body's stored value, stage by stage. -/
theorem k0_pay1_eq (v0 : Vec Ideal S400x10000 .f32) (v1 : Vec Ideal S10000x128 .f32) (v11 : Vec Ideal S400x128 .f32)
    (v12 : Vec Ideal S128x256 .f32) :
    Gen.k0_pay1 (F := Ideal) v0 v1 v11 v12
      = normBlk (maximumf (linBlk v11 (meanBlk v0 v1) v12) (broadcast S400x128 (Scalar.ofBits .f32 0x00000000#32))) := rfl

/-- The second body's stored value, stage by stage. -/
theorem k1_pay1_eq (v0 : Vec Ideal S400x10000 .f32) (v1 : Vec Ideal S10000x128 .f32) (v12 : Vec Ideal S400x128 .f32)
    (v14 : Vec Ideal S128x256 .f32) (v22 : Vec Ideal S40x128 .f32) (v25 : Vec Ideal S1x40 .f32) :
    Gen.k1_pay1 (F := Ideal) v0 v1 v12 v14 v22 v25
      = addf
          (matmul dot_S400x128_S128x40_S400x40_1_0_0_1_n_n (some .fp32)
            (linBlk (shapeCast S400x128 v12 shapeCasts_S400x128_S400x128)
              (meanBlk v0 (shapeCast S10000x128 v1 shapeCasts_S10000x128_S10000x128)) v14)
            (transpose S128x40 [1, 0] v22 transposes_S40x128_p1_0_S128x40 : FVec Ideal S128x40 .f32)
            (constant S400x40 .f32 0x00000000#32))
          (broadcastTo S400x40 (shapeCast S1x40 v25 shapeCasts_S1x40_S1x40) broadcasts_S1x40_S400x40) := rfl

/-- The mean block at (p, k) is the specification's neighbourhood mean of row p. -/
theorem meanBlk_apply (A : FVec Ideal S400x10000 .f32) (Fe : FVec Ideal S10000x128 .f32) (p : Fin 400) (k : Fin 128) :
    meanBlk A Fe (ix2 p k) = Cert.Sage.meanRow (Cert.Sage.rowOf A p) Fe k := by
  unfold meanBlk Cert.Sage.meanRow Cert.Sage.aggRow Cert.Sage.degRow
  refine (divf_apply _ _ _).trans ?_
  refine congrArg₂ Ideal.div ?_ ?_
  · rw [dotA_eq]
    exact matmul_plain_zero_apply none A Fe p k
  · refine (lanes128_apply _ p k).trans ?_
    refine (addf_apply _ _ _).trans ?_
    refine congrArg₂ (· + ·) ?_ rfl
    refine (col_apply _ p 0).trans ?_
    exact rowsum10000_apply A p

/-- The layer block at (p, o) is the specification's layer of the row's features and mean. -/
theorem linBlk_apply (X Mn : FVec Ideal S400x128 .f32) (W : FVec Ideal S128x256 .f32) (p : Fin 400) (o : Fin 128) :
    linBlk X Mn W (ix2 p o)
      = (∑ k : Fin 128, X (ix2 p k) * W (ix2 o (Cert.Sage.lo k))) + ∑ k : Fin 128, Mn (ix2 p k) * W (ix2 o (Cert.Sage.hi k)) := by
  unfold linBlk
  refine (addf_apply _ _ _).trans ?_
  rw [dotB_eq]
  refine congrArg₂ (· + ·) ?_ ?_
  · refine (matmul_plain_zero_apply (some .fp32) X _ p o).trans ?_
    exact Finset.sum_congr rfl fun k _ => congrArg (X (ix2 p k) * ·) (wlo_apply W k o)
  · refine (matmul_plain_zero_apply (some .fp32) Mn _ p o).trans ?_
    exact Finset.sum_congr rfl fun k _ => congrArg (Mn (ix2 p k) * ·) (whi_apply W k o)

/-- The layer block of a row's features and the mean block is the specification's layer row. -/
theorem linBlk_mean_apply (A : FVec Ideal S400x10000 .f32) (Fe : FVec Ideal S10000x128 .f32) (X : FVec Ideal S400x128 .f32)
    (W : FVec Ideal S128x256 .f32) (p : Fin 400) (o : Fin 128) :
    linBlk X (meanBlk A Fe) W (ix2 p o) = Cert.Sage.linRow (Cert.Sage.rowOf A p) Fe (Cert.Sage.rowOf X p) W o := by
  refine (linBlk_apply X (meanBlk A Fe) W p o).trans ?_
  unfold Cert.Sage.linRow
  refine congrArg₂ (· + ·) rfl ?_
  exact Finset.sum_congr rfl fun k _ => congrArg (· * W (ix2 o (Cert.Sage.hi k))) (meanBlk_apply A Fe p k)

/-- The normalised block at (p, o): the entry over the row's norm kept above the floor. -/
theorem normBlk_apply (R : FVec Ideal S400x128 .f32) (p : Fin 400) (o : Fin 128) :
    normBlk R (ix2 p o)
      = Ideal.div (R (ix2 p o)) (max (Ideal.sqrt (∑ o' : Fin 128, R (ix2 p o') * R (ix2 p o'))) Cert.Sage.eps) := by
  unfold normBlk
  refine (divf_apply _ _ _).trans ?_
  refine congrArg (Ideal.div (R (ix2 p o))) ?_
  refine (lanes128_apply _ p o).trans ?_
  refine (maximumf_apply _ _ _).trans ?_
  refine congrArg₂ max ?_ rfl
  show Ideal.sqrt _ = Ideal.sqrt _
  refine congrArg Ideal.sqrt ?_
  refine (col_apply _ p 0).trans ?_
  exact rowsum128_apply (mulf R R) p

/-! ## The two stored values -/

/-- The first body's stored value at (p, o) is the specification's hidden row of the body's loads. -/
theorem pay0_apply (v0 : Vec Ideal S400x10000 .f32) (v1 : Vec Ideal S10000x128 .f32) (v11 : Vec Ideal S400x128 .f32)
    (v12 : Vec Ideal S128x256 .f32) (p : Fin 400) (o : Fin 128) :
    Gen.k0_pay1 (F := Ideal) v0 v1 v11 v12 (ix2 p o)
      = Cert.Sage.hidRow (Cert.Sage.rowOf v0 p) v1 (Cert.Sage.rowOf v11 p) v12 o := by
  rw [k0_pay1_eq]
  refine (normBlk_apply _ p o).trans ?_
  have hr : ∀ o' : Fin 128,
      maximumf (linBlk v11 (meanBlk v0 v1) v12) (broadcast S400x128 (Scalar.ofBits .f32 0x00000000#32)) (ix2 p o')
        = Cert.Sage.reluRow (Cert.Sage.rowOf v0 p) v1 (Cert.Sage.rowOf v11 p) v12 o' := fun o' => by
    refine (maximumf_apply _ _ _).trans ?_
    unfold Cert.Sage.reluRow
    exact congrArg₂ max (linBlk_mean_apply v0 v1 v11 v12 p o') rfl
  unfold Cert.Sage.hidRow
  rw [hr o]
  refine congrArg (Ideal.div _) (congrArg₂ max (congrArg Ideal.sqrt ?_) rfl)
  exact Finset.sum_congr rfl fun o' _ => by rw [hr o']

/-- The second body's stored value at (p, c) is the specification's classifier row of the body's loads. -/
theorem pay1_apply (v0 : Vec Ideal S400x10000 .f32) (v1 : Vec Ideal S10000x128 .f32) (v12 : Vec Ideal S400x128 .f32)
    (v14 : Vec Ideal S128x256 .f32) (v22 : Vec Ideal S40x128 .f32) (v25 : Vec Ideal S1x40 .f32) (p : Fin 400) (c : Fin 40) :
    Gen.k1_pay1 (F := Ideal) v0 v1 v12 v14 v22 v25 (ix2 p c)
      = Cert.Sage.outRow (Cert.Sage.rowOf v0 p) v1 (Cert.Sage.rowOf v12 p) v14 v22
          (fun c' => v25 (ix2 (0 : Fin 1) c')) c := by
  rw [k1_pay1_eq, shapeCast_self v12, shapeCast_self v1, shapeCast_self v25]
  refine (addf_apply _ _ _).trans ?_
  unfold Cert.Sage.outRow
  refine congrArg₂ (· + ·) ?_ (bias_apply v25 p c)
  rw [dotC_eq]
  refine (matmul_plain_zero_apply (some .fp32) _ _ p c).trans ?_
  refine Finset.sum_congr rfl fun o _ => ?_
  exact congrArg₂ (· * ·) (linBlk_mean_apply v0 v1 v12 v14 p o) (cwT_apply v22 o c)

end Cert.KernelIdeal.PaySpec

end
-- ==== Proof.Layer1.lean ====
/-
  The first launch's output array is the hidden features of every node.

  Point `t` writes back the 400 rows `400 · t … 400 · t + 399`; row `p` of what it writes is the hidden row of node
  `400 · t + p`, computed from that node's adjacency row, the whole feature matrix and the node's own feature row.
  The 25 points' blocks cover all 10000 rows, so the array ends holding the hidden features.
-/
import proofs.«108312_g26362509263551_cont_9to1_631_7_alg».proof.Proof.Blocks
import proofs.«108312_g26362509263551_cont_9to1_631_7_alg».proof.Proof.PayloadIsSpec
import proofs.«108312_g26362509263551_cont_9to1_631_7_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.KernelIdeal.Found Cert.KernelIdeal.Blocks

variable (V : (c : Dev nD) → (b : Ref sig .tc) → Buf (Elt Ideal) ((c : Thread nD τ).loc b))

/-- The hidden features of the arrays the launch finds. -/
abbrev H (c : Dev nD) : Vec Ideal S10000x128 .f32 :=
  Cert.Sage.hid (V c main_arg0) (V c main_arg1) (V c main_arg2)

/-- What point `t` leaves in the output block, at node `p` and feature `o`: the hidden row of node `400 · t + p`. -/
theorem outsAt_apply (c : Dev nD) (t : Fin cfg0.N) (p : Fin 400) (o : Fin 128) :
    outsAt0 V c t (ix2 p o) = H V c (ix2 (node0 t p) o) := by
  unfold outsAt0
  rw [out0_eq]
  refine (Cert.KernelIdeal.PaySpec.pay0_apply (iblk0 V c 0 t) (iblk0 V c 1 t)
    (ownRows0 (grid0.coords t) (iblk0 V c 1 t)) (iblk0 V c 2 t) p o).trans ?_
  have ea : Cert.Sage.rowOf (iblk0 V c 0 t : Vec Ideal S400x10000 .f32) p
      = Cert.Sage.rowOf (V c main_arg0 : Vec Ideal S10000x10000 .f32) (node0 t p) := funext fun j => adj0 V c t p j
  have eo : Cert.Sage.rowOf (ownRows0 (grid0.coords t) (iblk0 V c 1 t : Vec Ideal S10000x128 .f32)) p
      = Cert.Sage.rowOf (V c main_arg1 : Vec Ideal S10000x128 .f32) (node0 t p) := by
    funext k
    show ownRows0 (grid0.coords t) (iblk0 V c 1 t : Vec Ideal S10000x128 .f32) (ix2 p k) = _
    rw [own0, feat0]
  rw [ea, eo, feat0, wts0]
  rfl

/-- What point `t` writes back is its block of the hidden features. -/
theorem flushed_eq (c : Dev nD) (t : Fin cfg0.N) :
    (dat0 V c).flushed 3 t = ((cfg0.win 3).blk t).view.read (Elt Ideal) (H V c) := by
  show (cfg0.win 3).cut (grid0.coords t) ((dat0 V c).after 3 t) = _
  rw [after0_3]
  funext y
  obtain ⟨p, o, rfl⟩ : ∃ (p : Fin 400) (o : Fin 128), y = ix2 p o := ⟨y 0, y 1, eq_ix2 y⟩
  rw [View.read_apply, outIdx0]
  exact outsAt_apply V c t p o

/-- An index of the hidden-feature array is in point `t`'s block iff each coordinate is in the block's range. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_call0_v0).slice (win0_3.rect t)).set ↔ _
  rw [View.set_slice_whole, Rect.mem_set_unit]
  exact Iff.rfl

/-- Every row is some point's: row `r` belongs to point `r / 400`. -/
theorem cover (i : S10000x128.Idx) :
    ∃ t : Fin cfg0.N, (cfg0.win 3).flush t = true ∧ i ∈ ((cfg0.win 3).blk t).view.set := by
  have hN : cfg0.N = 25 := N_0
  have hi0 : (i 0).val < 10000 := (i 0).isLt
  have hi1 : (i 1).val < 128 := (i 1).isLt
  refine ⟨⟨(i 0).val / 400, by omega⟩, flush0_3 _, ?_⟩
  rw [mem_blk]
  obtain ⟨-, -, -, -, -, -, e0, e1, -⟩ := idx_facts0 ⟨(i 0).val / 400, by omega⟩
  intro a
  match a with
  | ⟨0, _⟩ =>
    show win0_3.index _ (0 : Fin 2) * 400 ≤ (i 0).val ∧ (i 0).val < win0_3.index _ (0 : Fin 2) * 400 + 400
    rw [e0]; dsimp only; omega
  | ⟨1, _⟩ =>
    show win0_3.index _ (1 : Fin 2) * 128 ≤ (i 1).val ∧ (i 1).val < win0_3.index _ (1 : Fin 2) * 128 + 128
    rw [e1]; omega

/-- After the launch the output array holds the hidden features. -/
theorem final (c : Dev nD) : (dat0 V c).arrAt 3 cfg0.N = H V c :=
  (dat0 V c).arrAt_eq_of_cover 3 (H V c) (fun t _ => flushed_eq V c t) cover

end Cert.KernelIdeal.Layer1

end
-- ==== Proof.Layer2.lean ====
/-
  The second launch's output array is the class scores of every node.

  Point `t` writes back the 400 rows `400 · t … 400 · t + 399`; row `p` of what it writes is the classifier's row
  of node `400 · t + p`, computed from that node's adjacency row, the whole hidden-feature matrix the launch
  finds, the node's own hidden row, the second layer's weights, the classifier's weights and the first row of
  the bias block. The 25 points' blocks cover all 10000 rows.
-/
import proofs.«108312_g26362509263551_cont_9to1_631_7_alg».proof.Proof.Blocks
import proofs.«108312_g26362509263551_cont_9to1_631_7_alg».proof.Proof.PayloadIsSpec
import proofs.«108312_g26362509263551_cont_9to1_631_7_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.KernelIdeal.Found Cert.KernelIdeal.Blocks

/-- The class scores from an adjacency matrix, a hidden-feature matrix, the second layer's weights, the
    classifier's weights and an 8-row bias block of which row 0 is used. -/
def scores (A : Cert.Sage.Arr2 10000 10000) (Hd : Cert.Sage.Arr2 10000 128) (W : Cert.Sage.Arr2 128 256)
    (CW : Cert.Sage.Arr2 40 128) (B : Cert.Sage.Arr2 8 40) : Cert.Sage.Arr2 10000 40 :=
  fun j => Cert.Sage.outRow (Cert.Sage.rowOf A (j 0)) Hd (Cert.Sage.rowOf Hd (j 0)) W CW (fun c' => B (ix2 (0 : Fin 8) c')) (j 1)

variable (V : (c : Dev nD) → (b : Ref sig .tc) → Buf (Elt Ideal) ((c : Thread nD τ).loc b))

/-- The class scores of the arrays the launch finds. -/
abbrev Out (c : Dev nD) : Vec Ideal S10000x40 .f32 :=
  scores (V c main_arg0) (V c main_call0_v0) (V c main_arg3) (V c main_arg4) (V c main_call0_v2)

/-- What point `t` leaves in the output block, at node `p` and class `c'`: the classifier's row of node `400 · t + p`. -/
theorem outsAt_apply (c : Dev nD) (t : Fin cfg1.N) (p : Fin 400) (c' : Fin 40) :
    outsAt1 V c t (ix2 p c') = Out V c (ix2 (node1 t p) c') := by
  unfold outsAt1
  rw [out1_eq]
  refine (Cert.KernelIdeal.PaySpec.pay1_apply (iblk1 V c 0 t) (iblk1 V c 1 t)
    (ownRows1 (grid1.coords t) (iblk1 V c 1 t)) (iblk1 V c 2 t) (iblk1 V c 3 t) (biasRow (iblk1 V c 4 t)) p c').trans ?_
  have ea : Cert.Sage.rowOf (iblk1 V c 0 t : Vec Ideal S400x10000 .f32) p
      = Cert.Sage.rowOf (V c main_arg0 : Vec Ideal S10000x10000 .f32) (node1 t p) := funext fun j => adj1 V c t p j
  have eo : Cert.Sage.rowOf (ownRows1 (grid1.coords t) (iblk1 V c 1 t : Vec Ideal S10000x128 .f32)) p
      = Cert.Sage.rowOf (V c main_call0_v0 : Vec Ideal S10000x128 .f32) (node1 t p) := by
    funext k
    show ownRows1 (grid1.coords t) (iblk1 V c 1 t : Vec Ideal S10000x128 .f32) (ix2 p k) = _
    rw [own1, feat1]
  have eb : (fun c'' : Fin 40 => biasRow (iblk1 V c 4 t : Vec Ideal S8x40 .f32) (ix2 (0 : Fin 1) c''))
      = fun c'' : Fin 40 => (V c main_call0_v2 : Vec Ideal S8x40 .f32) (ix2 (0 : Fin 8) c'') := by
    funext c''
    rw [bias1, clb1]
  rw [ea, eo, eb, feat1, wts1, clw1]
  rfl

/-- What point `t` writes back is its block of the class scores. -/
theorem flushed_eq (c : Dev nD) (t : Fin cfg1.N) :
    (dat1 V c).flushed 5 t = ((cfg1.win 5).blk t).view.read (Elt Ideal) (Out V c) := by
  show (cfg1.win 5).cut (grid1.coords t) ((dat1 V c).after 5 t) = _
  rw [after1_5]
  funext y
  obtain ⟨p, c', rfl⟩ : ∃ (p : Fin 400) (c' : Fin 40), y = ix2 p c' := ⟨y 0, y 1, eq_ix2 y⟩
  rw [View.read_apply, outIdx1]
  exact outsAt_apply V c t p c'

/-- An index of the score array is in point `t`'s block iff each coordinate is in the block's range. -/
theorem mem_blk (t : Fin cfg1.N) (i : S10000x40.Idx) :
    i ∈ ((cfg1.win 5).blk t).view.set ↔ ∀ a : Fin 2, win1_5.index t a * S400x40.size a ≤ (i a).val ∧ (i a).val < win1_5.index t a * S400x40.size a + S400x40.size a := by
  show i ∈ ((View.whole main_v0).slice (win1_5.rect t)).set ↔ _
  rw [View.set_slice_whole, Rect.mem_set_unit]
  exact Iff.rfl

/-- Every row is some point's: row `r` belongs to point `r / 400`. -/
theorem cover (i : S10000x40.Idx) :
    ∃ t : Fin cfg1.N, (cfg1.win 5).flush t = true ∧ i ∈ ((cfg1.win 5).blk t).view.set := by
  have hN : cfg1.N = 25 := N_1
  have hi0 : (i 0).val < 10000 := (i 0).isLt
  have hi1 : (i 1).val < 40 := (i 1).isLt
  refine ⟨⟨(i 0).val / 400, by omega⟩, flush1_5 _, ?_⟩
  rw [mem_blk]
  obtain ⟨-, -, -, -, -, -, -, -, -, -, e0, e1, -⟩ := idx_facts1 ⟨(i 0).val / 400, by omega⟩
  intro a
  match a with
  | ⟨0, _⟩ =>
    show win1_5.index _ (0 : Fin 2) * 400 ≤ (i 0).val ∧ (i 0).val < win1_5.index _ (0 : Fin 2) * 400 + 400
    rw [e0]; dsimp only; omega
  | ⟨1, _⟩ =>
    show win1_5.index _ (1 : Fin 2) * 40 ≤ (i 1).val ∧ (i 1).val < win1_5.index _ (1 : Fin 2) * 40 + 40
    rw [e1]; omega

/-- After the launch the output array holds the class scores. -/
theorem final (c : Dev nD) : (dat1 V c).arrAt 5 cfg1.N = Out V c :=
  (dat1 V c).arrAt_eq_of_cover 5 (Out V c) (fun t _ => flushed_eq V c t) cover

end Cert.KernelIdeal.Layer2

end
-- ==== Proof.RunValue.lean ====
/-
  The kernel program's run, read: the result array and the arguments after the run.

  The program is the first launch, two host operations that lay the bias out as an 8-row block, and the second
  launch. Every weakly fair execution terminates with each buffer at the contents the last boundary names; this
  module reads the result array there, back through the boundaries: the second launch's output is the class
  scores of what that launch finds; it finds the adjacency matrix and the weights as launched, the hidden
  features the first launch left, and the bias block whose row 0 is the bias.
-/
import proofs.«108312_g26362509263551_cont_9to1_631_7_alg».proof.Proof.Layer1
import proofs.«108312_g26362509263551_cont_9to1_631_7_alg».proof.Proof.Layer2
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the arguments as launched. -/
theorem run_last : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.Result.lean ====
/-
  The kernel program's result array is the specification's class scores of the launch arguments.

  Read back from the end: the second launch's output is the class scores of what that launch finds. It finds the
  adjacency matrix, the second layer's weights and the classifier's weights as launched (no launch and no host
  operation writes an argument); the hidden features, which the first launch left in its output array and the two
  host operations do not touch; and the bias block, the bias vector laid out as one row and repeated eight times,
  whose row 0 is the bias.
-/
import proofs.«108312_g26362509263551_cont_9to1_631_7_alg».proof.Proof.RunValue

set_option maxRecDepth 16384

noncomputable section

namespace Cert.KernelIdeal.Result

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-- The hidden features of the launch arguments. -/
abbrev hidden (c : Dev nD) : Vec Ideal S10000x128 .f32 :=
  Cert.Sage.hid (m ((c.tc : Thread nD τ).loc main_arg0)) (m ((c.tc : Thread nD τ).loc main_arg1)) (m ((c.tc : Thread nD τ).loc main_arg2))

/-- The first launch leaves the hidden features in its output array. -/
theorem V1_hidden (c : Dev nD) : V1 m ρ c main_call0_v0 = hidden m c :=
  (W1_arr m ρ c 3).trans (Cert.KernelIdeal.Layer1.final (V0 m ρ) c)

/-- The host operations between the launches leave them there. -/
theorem V2_hidden (c : Dev nD) : V2 m ρ c main_call0_v0 = hidden m c := by
  show StableHlo.after hostOps1 (W1 m ρ c) (Proc.devRef .tc main_call0_v0) = _
  after_results
  exact V1_hidden m ρ c

/-- The second launch finds the adjacency matrix as launched. -/
theorem V2_arg0 (c : Dev nD) : V2 m ρ c main_arg0 = m ((c.tc : Thread nD τ).loc main_arg0) := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- It finds the second layer's weights as launched. -/
theorem V2_arg3 (c : Dev nD) : V2 m ρ c main_arg3 = m ((c.tc : Thread nD τ).loc main_arg3) := by
  show StableHlo.after hostOps1 (W1 m ρ c) (Proc.devRef .tc main_arg3) = _
  after_results
  exact W1_of_ne m ρ c main_arg3 (by decide)

/-- It finds the classifier's weights as launched. -/
theorem V2_arg4 (c : Dev nD) : V2 m ρ c main_arg4 = m ((c.tc : Thread nD τ).loc main_arg4) := by
  show StableHlo.after hostOps1 (W1 m ρ c) (Proc.devRef .tc main_arg4) = _
  after_results
  exact W1_of_ne m ρ c main_arg4 (by decide)

/-- Row 0 of the bias block it finds is the bias vector. -/
theorem V2_bias (c : Dev nD) (c' : Fin 40) :
    (V2 m ρ c main_call0_v2 : Vec Ideal S8x40 .f32) (ix2 (0 : Fin 8) c')
      = (m ((c.tc : Thread nD τ).loc main_arg5) : Vec Ideal S40 .f32) (ix1 c') := by
  have e : (V2 m ρ c main_call0_v2 : Vec Ideal S8x40 .f32)
      = broadcastInDim S8x40 ![0, 1] bcast_S1x40_S8x40_0_1
          (shapeCast S1x40 (W1 m ρ c (Proc.devRef .tc main_arg5) : Vec Ideal S40 .f32) shapeCasts_S40_S1x40) := by
    show StableHlo.after hostOps1 (W1 m ρ c) (Proc.devRef .tc main_call0_v2) = _
    after_results
    rfl
  have e5 : (W1 m ρ c (Proc.devRef .tc main_arg5) : Vec Ideal S40 .f32) = m ((c.tc : Thread nD τ).loc main_arg5) :=
    W1_of_ne m ρ c main_arg5 (by decide)
  rw [e, e5]
  rw [broadcastInDim_apply _ bcast_S1x40_S8x40_0_1 _ (ix2 (0 : Fin 8) c') (ix2 (0 : Fin 1) c') (fun a => by
    match a with
    | ⟨0, _⟩ => show (0 : Nat) = if (1 : Nat) = 1 then 0 else 0; rw [if_pos rfl]
    | ⟨1, _⟩ => show c'.val = if (40 : Nat) = 1 then 0 else c'.val; rw [if_neg (by decide)])]
  rw [shapeCast_addUnit_apply]
  exact congrArg (m ((c.tc : Thread nD τ).loc main_arg5)) (funext fun a => by match a with | ⟨0, _⟩ => rfl)

/-- The result array after the run is the specification's class scores of the launch arguments. -/
theorem result_eq (c : Dev nD) : W3 m ρ c (Proc.devRef .tc main_v0)
    = Cert.Sage.out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W3_arr m ρ c 5).trans ((Cert.KernelIdeal.Layer2.final (V2 m ρ) c).trans ?_)
  show Cert.KernelIdeal.Layer2.scores (V2 m ρ c main_arg0) (V2 m ρ c main_call0_v0) (V2 m ρ c main_arg3)
    (V2 m ρ c main_arg4) (V2 m ρ c main_call0_v2) = _
  rw [V2_arg0, V2_hidden, V2_arg3, V2_arg4]
  funext j
  unfold Cert.KernelIdeal.Layer2.scores Cert.Sage.out
  rw [show (fun c' : Fin 40 => (V2 m ρ c main_call0_v2 : Vec Ideal S8x40 .f32) (ix2 (0 : Fin 8) c'))
      = fun c' : Fin 40 => (m ((c.tc : Thread nD τ).loc main_arg5) : Vec Ideal S40 .f32) (ix1 c') from
    funext (V2_bias m ρ c)]

/-- Every weakly fair execution of the kernel program terminates, nothing faulting, with the result array at the
    specification's class scores of the launch arguments and the arguments unchanged. -/
theorem run : θ_run defs (onTc (τ := τ) (main (F := Ideal))) ⟨m, fun _ => 0, ρ⟩ (fun r => ∀ c : Dev nD,
      r.2.mem ((c.tc : Thread nD τ).loc main_v0)
        = Cert.Sage.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.RunValue.run_last m ρ)

end Cert.KernelIdeal.Result

end
-- ==== Proof.RefIsSpec.lean ====
/-
  The reference program's result is the specification.

  Each layer of the reference is one contraction over 256 columns of the row [own features | neighbourhood mean]
  against the transposed weights; splitting the sum over 256 indices into its two halves gives the specification's
  two 128-term sums. The remaining stages (degree, aggregate, mean, clipping at zero, the Euclidean norm kept above
  a floor, the quotient, the classifier and its bias) are read index by index.
-/
import proofs.«108312_g26362509263551_cont_9to1_631_7_alg».proof.Proof.Gen.ReferenceIdeal.Read
import proofs.«108312_g26362509263551_cont_9to1_631_7_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Sage (lo hi rowOf degRow aggRow meanRow linRow reluRow hidRow outRow)

/-- Arrays of ideal values with the literal shapes of the program. -/
abbrev A2 (s : Shape) : Type := (⟨s, .f32⟩ : BufTy).Contents (Elt Ideal)

/-! ## The joined row -/

/-- A row of the joined array at a column of its first half is the first piece there. -/
theorem concat_lo (a b : A2 S10000x128) (i : Fin 10000) (k : Fin 128) :
    concatenate S10000x256 1 [⟨S10000x128, a⟩, ⟨S10000x128, b⟩] concatenates_S10000x128_S10000x128_S10000x256_d1
      (ix2 i (lo k)) = a (ix2 i k) :=
  concatenate_pair_apply_left 1 a b concatenates_S10000x128_S10000x128_S10000x256_d1 (ix2 i (lo k)) rfl (ix2 i k)
    (fun c => by match c with | ⟨0, _⟩ => rfl | ⟨1, _⟩ => rfl)

/-- A row of the joined array at a column of its second half is the second piece, 128 columns back. -/
theorem concat_hi (a b : A2 S10000x128) (i : Fin 10000) (k : Fin 128) :
    concatenate S10000x256 1 [⟨S10000x128, a⟩, ⟨S10000x128, b⟩] concatenates_S10000x128_S10000x128_S10000x256_d1
      (ix2 i (hi k)) = b (ix2 i k) :=
  concatenate_pair_apply_right 1 a b concatenates_S10000x128_S10000x128_S10000x256_d1 (ix2 i (hi k)) rfl rfl (ix2 i k)
    (fun c hc => by match c with | ⟨0, _⟩ => rfl | ⟨1, _⟩ => exact absurd rfl hc)
    (by show k.val + 128 = 128 + k.val; omega)

/-! ## The first layer -/

/-- The degree plus one, along the whole row. -/
theorem deg_v5 (x0 : A2 S10000x10000) (i : Fin 10000) (k : Fin 128) :
    val_main_v5 (F := Ideal) x0 (ix2 i k) = degRow (rowOf x0 i) + Cert.Sage.one := by
  rw [val_main_v5_apply, val_main_v4_apply, val_main_v1_apply, val_main_v0_apply, val_main_v3_apply,
    val_main_cst_0_apply, val_main_cst_apply]
  have e : ∀ j : Fin 10000, idx_main_v0 (idx_main_v1 (idx_main_v5 (ix2 i k))) j = ix2 i j := fun j =>
    funext fun a => Fin.ext (by match a with | ⟨0, _⟩ => rfl | ⟨1, _⟩ => rfl)
  simp only [e]
  show (Ideal.ofBits .f32 0x00000000#32 + ∑ j : Fin 10000, x0 (ix2 i j)) + Cert.Sage.one
    = (∑ j : Fin 10000, x0 (ix2 i j)) + Cert.Sage.one
  rw [Ideal.ofBits_zero_f32, zero_add]

/-- The aggregate of the neighbours' features. -/
theorem agg_v2 (x0 : A2 S10000x10000) (x1 : A2 S10000x128) (i : Fin 10000) (k : Fin 128) :
    val_main_v2 (F := Ideal) x0 x1 (ix2 i k) = aggRow (rowOf x0 i) x1 k := by
  rw [val_main_v2_apply]
  show _ = ∑ j : Fin 10000, x0 (ix2 i j) * x1 (ix2 j k)
  refine Finset.sum_congr rfl fun j _ => ?_
  have el : lidx_main_v2 (ix2 i k) j = ix2 i j := funext fun a => Fin.ext (by match a with | ⟨0, _⟩ => rfl | ⟨1, _⟩ => rfl)
  have er : ridx_main_v2 (ix2 i k) j = ix2 j k := funext fun a => Fin.ext (by match a with | ⟨0, _⟩ => rfl | ⟨1, _⟩ => rfl)
  rw [el, er]

/-- The neighbourhood mean. -/
theorem mean_v6 (x0 : A2 S10000x10000) (x1 : A2 S10000x128) (i : Fin 10000) (k : Fin 128) :
    val_main_v6 (F := Ideal) x0 x1 (ix2 i k) = meanRow (rowOf x0 i) x1 k := by
  rw [val_main_v6_apply, agg_v2, deg_v5]
  rfl

/-- The layer: the contraction over the 256 joined columns is the sum of its two halves. -/
theorem lin_v9 (x0 : A2 S10000x10000) (x1 : A2 S10000x128) (x2 : A2 S128x256) (i : Fin 10000) (o : Fin 128) :
    val_main_v9 (F := Ideal) x0 x1 x2 (ix2 i o) = linRow (rowOf x0 i) x1 (rowOf x1 i) x2 o := by
  rw [val_main_v9_apply, Cert.Sage.sum_halves]
  show _ = (∑ k : Fin 128, x1 (ix2 i k) * x2 (ix2 o (lo k)))
    + ∑ k : Fin 128, meanRow (rowOf x0 i) x1 k * x2 (ix2 o (hi k))
  refine congrArg₂ (· + ·) (Finset.sum_congr rfl fun k _ => ?_) (Finset.sum_congr rfl fun k _ => ?_)
  · have el : lidx_main_v9 (ix2 i o) (lo k) = ix2 i (lo k) := funext fun a => Fin.ext (by match a with | ⟨0, _⟩ => rfl | ⟨1, _⟩ => rfl)
    have er : idx_main_v8 (ridx_main_v9 (ix2 i o) (lo k)) = ix2 o (lo k) := funext fun a => Fin.ext (by match a with | ⟨0, _⟩ => rfl | ⟨1, _⟩ => rfl)
    rw [val_main_v8_apply, el, er]
    unfold val_main_v7
    rw [concat_lo]
  · have el : lidx_main_v9 (ix2 i o) (hi k) = ix2 i (hi k) := funext fun a => Fin.ext (by match a with | ⟨0, _⟩ => rfl | ⟨1, _⟩ => rfl)
    have er : idx_main_v8 (ridx_main_v9 (ix2 i o) (hi k)) = ix2 o (hi k) := funext fun a => Fin.ext (by match a with | ⟨0, _⟩ => rfl | ⟨1, _⟩ => rfl)
    rw [val_main_v8_apply, el, er]
    unfold val_main_v7
    rw [concat_hi, mean_v6]

/-- The layer clipped at zero. -/
theorem relu_v10 (x0 : A2 S10000x10000) (x1 : A2 S10000x128) (x2 : A2 S128x256) (i : Fin 10000) (o : Fin 128) :
    val_main_v10 (F := Ideal) x0 x1 x2 (ix2 i o) = reluRow (rowOf x0 i) x1 (rowOf x1 i) x2 o := by
  rw [val_main_v10_apply, lin_v9, val_main_call0_v0_apply, val_main_call0_cst_apply]
  rfl

/-- The Euclidean norm of the clipped row, kept above the floor, along the whole row. -/
theorem norm_v14 (x0 : A2 S10000x10000) (x1 : A2 S10000x128) (x2 : A2 S128x256) (i : Fin 10000) (o : Fin 128) :
    val_main_v14 (F := Ideal) x0 x1 x2 (ix2 i o)
      = max (Ideal.sqrt (∑ o' : Fin 128, reluRow (rowOf x0 i) x1 (rowOf x1 i) x2 o' * reluRow (rowOf x0 i) x1 (rowOf x1 i) x2 o')) Cert.Sage.eps := by
  rw [val_main_v14_apply, val_main_v13_apply, val_main_v11_apply, val_main_call1_v2_apply, val_main_call1_v1_apply,
    val_main_v12_apply, val_main_cst_1_apply, val_main_call1_cst_apply]
  have e : ∀ o' : Fin 128, val_main_call1_v0 (F := Ideal) x0 x1 x2
      (idx_main_call1_v1 (idx_main_call1_v2 (idx_main_v14 (ix2 i o))) o') = reluRow (rowOf x0 i) x1 (rowOf x1 i) x2 o' * reluRow (rowOf x0 i) x1 (rowOf x1 i) x2 o' := fun o' => by
    have ei : idx_main_call1_v1 (idx_main_call1_v2 (idx_main_v14 (ix2 i o))) o' = ix2 i o' := funext fun a => Fin.ext (by match a with | ⟨0, _⟩ => rfl | ⟨1, _⟩ => rfl)
    rw [ei, val_main_call1_v0_apply, relu_v10]
    rfl
  simp only [e]
  show max (Ideal.sqrt (Ideal.ofBits .f32 0x00000000#32 + ∑ o' : Fin 128, reluRow (rowOf x0 i) x1 (rowOf x1 i) x2 o' * reluRow (rowOf x0 i) x1 (rowOf x1 i) x2 o')) Cert.Sage.eps = _
  rw [Ideal.ofBits_zero_f32, zero_add]

/-- The reference's hidden features are the specification's. -/
theorem hid_eq (x0 : (⟨S10000x10000, .f32⟩ : BufTy).Contents (Elt Ideal)) (x1 : (⟨S10000x128, .f32⟩ : BufTy).Contents (Elt Ideal))
    (x2 : (⟨S128x256, .f32⟩ : BufTy).Contents (Elt Ideal)) :
    Cert.ReferenceIdeal.Read.val_main_v15 (F := Ideal) x0 x1 x2 = Cert.Sage.hid x0 x1 x2 := by
  funext j
  obtain ⟨i, o, rfl⟩ : ∃ (i : Fin 10000) (o : Fin 128), j = ix2 i o := ⟨j 0, j 1, eq_ix2 j⟩
  rw [val_main_v15_apply, relu_v10, norm_v14]
  rfl

/-! ## The second layer and the classifier -/

/-- The degree plus one, along the whole row. -/
theorem deg_v21 (x0 : A2 S10000x10000) (i : Fin 10000) (k : Fin 128) :
    val_main_v21 (F := Ideal) x0 (ix2 i k) = degRow (rowOf x0 i) + Cert.Sage.one := by
  rw [val_main_v21_apply, val_main_v20_apply, val_main_v17_apply, val_main_v16_apply, val_main_v19_apply,
    val_main_cst_3_apply, val_main_cst_2_apply]
  have e : ∀ j : Fin 10000, idx_main_v16 (idx_main_v17 (idx_main_v21 (ix2 i k))) j = ix2 i j := fun j =>
    funext fun a => Fin.ext (by match a with | ⟨0, _⟩ => rfl | ⟨1, _⟩ => rfl)
  simp only [e]
  show (Ideal.ofBits .f32 0x00000000#32 + ∑ j : Fin 10000, x0 (ix2 i j)) + Cert.Sage.one
    = (∑ j : Fin 10000, x0 (ix2 i j)) + Cert.Sage.one
  rw [Ideal.ofBits_zero_f32, zero_add]

/-- The aggregate of the neighbours' features. -/
theorem agg_v18 (x0 : A2 S10000x10000) (x1 : A2 S10000x128) (x2 : A2 S128x256) (i : Fin 10000) (k : Fin 128) :
    val_main_v18 (F := Ideal) x0 x1 x2 (ix2 i k) = aggRow (rowOf x0 i) (Cert.Sage.hid x0 x1 x2) k := by
  rw [val_main_v18_apply, hid_eq]
  show _ = ∑ j : Fin 10000, x0 (ix2 i j) * (Cert.Sage.hid x0 x1 x2) (ix2 j k)
  refine Finset.sum_congr rfl fun j _ => ?_
  have el : lidx_main_v18 (ix2 i k) j = ix2 i j := funext fun a => Fin.ext (by match a with | ⟨0, _⟩ => rfl | ⟨1, _⟩ => rfl)
  have er : ridx_main_v18 (ix2 i k) j = ix2 j k := funext fun a => Fin.ext (by match a with | ⟨0, _⟩ => rfl | ⟨1, _⟩ => rfl)
  rw [el, er]

/-- The neighbourhood mean. -/
theorem mean_v22 (x0 : A2 S10000x10000) (x1 : A2 S10000x128) (x2 : A2 S128x256) (i : Fin 10000) (k : Fin 128) :
    val_main_v22 (F := Ideal) x0 x1 x2 (ix2 i k) = meanRow (rowOf x0 i) (Cert.Sage.hid x0 x1 x2) k := by
  rw [val_main_v22_apply, agg_v18, deg_v21]
  rfl

/-- The layer: the contraction over the 256 joined columns is the sum of its two halves. -/
theorem lin_v25 (x0 : A2 S10000x10000) (x1 : A2 S10000x128) (x2 x3 : A2 S128x256) (i : Fin 10000) (o : Fin 128) :
    val_main_v25 (F := Ideal) x0 x1 x2 x3 (ix2 i o) = linRow (rowOf x0 i) (Cert.Sage.hid x0 x1 x2) (rowOf (Cert.Sage.hid x0 x1 x2) i) x3 o := by
  rw [val_main_v25_apply, Cert.Sage.sum_halves]
  show _ = (∑ k : Fin 128, (Cert.Sage.hid x0 x1 x2) (ix2 i k) * x3 (ix2 o (lo k)))
    + ∑ k : Fin 128, meanRow (rowOf x0 i) (Cert.Sage.hid x0 x1 x2) k * x3 (ix2 o (hi k))
  refine congrArg₂ (· + ·) (Finset.sum_congr rfl fun k _ => ?_) (Finset.sum_congr rfl fun k _ => ?_)
  · have el : lidx_main_v25 (ix2 i o) (lo k) = ix2 i (lo k) := funext fun a => Fin.ext (by match a with | ⟨0, _⟩ => rfl | ⟨1, _⟩ => rfl)
    have er : idx_main_v24 (ridx_main_v25 (ix2 i o) (lo k)) = ix2 o (lo k) := funext fun a => Fin.ext (by match a with | ⟨0, _⟩ => rfl | ⟨1, _⟩ => rfl)
    rw [val_main_v24_apply, el, er]
    unfold val_main_v23
    rw [concat_lo, hid_eq]
  · have el : lidx_main_v25 (ix2 i o) (hi k) = ix2 i (hi k) := funext fun a => Fin.ext (by match a with | ⟨0, _⟩ => rfl | ⟨1, _⟩ => rfl)
    have er : idx_main_v24 (ridx_main_v25 (ix2 i o) (hi k)) = ix2 o (hi k) := funext fun a => Fin.ext (by match a with | ⟨0, _⟩ => rfl | ⟨1, _⟩ => rfl)
    rw [val_main_v24_apply, el, er]
    unfold val_main_v23
    rw [concat_hi, mean_v22]

/-- The reference's class scores are the specification's. -/
theorem out_eq (x0 : (⟨S10000x10000, .f32⟩ : BufTy).Contents (Elt Ideal)) (x1 : (⟨S10000x128, .f32⟩ : BufTy).Contents (Elt Ideal))
    (x2 x3 : (⟨S128x256, .f32⟩ : BufTy).Contents (Elt Ideal)) (x4 : (⟨S40x128, .f32⟩ : BufTy).Contents (Elt Ideal))
    (x5 : (⟨S40, .f32⟩ : BufTy).Contents (Elt Ideal)) :
    Cert.ReferenceIdeal.Read.val_main_v30 (F := Ideal) x0 x1 x2 x3 x4 x5 = Cert.Sage.out x0 x1 x2 x3 x4 x5 := by
  funext j
  obtain ⟨i, c, rfl⟩ : ∃ (i : Fin 10000) (c : Fin 40), j = ix2 i c := ⟨j 0, j 1, eq_ix2 j⟩
  rw [val_main_v30_apply, val_main_v27_apply, val_main_v29_apply, val_main_v28_apply]
  have eb : idx_main_v28 (idx_main_v29 (ix2 i c)) = ix1 c := funext fun a => Fin.ext (by match a with | ⟨0, _⟩ => rfl)
  rw [eb]
  show (∑ o : Fin 128, _) + x5 (ix1 c)
    = (∑ o : Fin 128, linRow (rowOf x0 i) (Cert.Sage.hid x0 x1 x2) (rowOf (Cert.Sage.hid x0 x1 x2) i) x3 o * x4 (ix2 c o)) + x5 (ix1 c)
  refine congrArg (· + _) (Finset.sum_congr rfl fun o _ => ?_)
  have el : lidx_main_v27 (ix2 i c) o = ix2 i o := funext fun a => Fin.ext (by match a with | ⟨0, _⟩ => rfl | ⟨1, _⟩ => rfl)
  have er : idx_main_v26 (ridx_main_v27 (ix2 i c) o) = ix2 c o := funext fun a => Fin.ext (by match a with | ⟨0, _⟩ => rfl | ⟨1, _⟩ => rfl)
  rw [val_main_v26_apply, el, er, lin_v25]

end Cert.ReferenceIdeal.RefSpec

end
-- ==== Proof.lean ====
/-
  The kernel — two GraphSAGE layers and a linear classifier over a dense adjacency matrix, fused into two
  launches over 25 blocks of 400 nodes — against its jnp reference, over the extended reals.

  Both programs compute, for every node, one function of the arguments (`Cert.Sage.out`, Proof/Spec.lean): the
  degree and the neighbourhood mean from the node's adjacency row; a layer as the node's own features through the
  first 128 columns of the weights plus the mean through the last 128; the first layer clipped at zero and divided
  by its row norm (kept above a small constant); the second layer through the classifier's weights plus the bias.
  The reference forms each layer as ONE contraction over the 256 columns of [own features | mean]; the kernel as
  two contractions over 128 columns each, added. A sum over 256 indices is the sum over its two halves — a law of
  a commutative additive monoid, valid at the infinities — and nothing else separates the two sides: every literal
  (0, 1, the norm's floor) is the same word on both, the degree, the aggregate, the quotients, the square root
  and the maxima are the same operations, so the precondition is never opened.

  The kernel side: each body's stored value at an index is the specification's row function of the body's loads
  (Proof/PayloadIsSpec.lean); each launch's output array is that function of the arrays the launch finds, block
  by block (Proof/Found.lean, Blocks.lean, Layer1.lean, Layer2.lean); the run's last boundary read back through
  the two host operations between the launches gives the result array (Proof/RunValue.lean, Result.lean). The
  reference side: its generated run, read one operation at a time (Proof/RefIsSpec.lean). The ideal pass rewrote
  nothing, so the idealization claim is trivial.
-/
import proofs.«108312_g26362509263551_cont_9to1_631_7_alg».proof.Defs
import proofs.«108312_g26362509263551_cont_9to1_631_7_alg».proof.Proof.Gen.Kernel
import proofs.«108312_g26362509263551_cont_9to1_631_7_alg».proof.Proof.Gen.Kernel.Skeleton
import proofs.«108312_g26362509263551_cont_9to1_631_7_alg».proof.Proof.Gen.Kernel.Launch
import proofs.«108312_g26362509263551_cont_9to1_631_7_alg».proof.Proof.Gen.Kernel.Points
import proofs.«108312_g26362509263551_cont_9to1_631_7_alg».proof.Proof.Gen.Kernel.Frame
import proofs.«108312_g26362509263551_cont_9to1_631_7_alg».proof.Proof.Gen.KernelIdeal
import proofs.«108312_g26362509263551_cont_9to1_631_7_alg».proof.Proof.Gen.KernelIdeal.Skeleton
import proofs.«108312_g26362509263551_cont_9to1_631_7_alg».proof.Proof.Gen.KernelIdeal.Launch
import proofs.«108312_g26362509263551_cont_9to1_631_7_alg».proof.Proof.Gen.KernelIdeal.Points
import proofs.«108312_g26362509263551_cont_9to1_631_7_alg».proof.Proof.Gen.KernelIdeal.Frame
import proofs.«108312_g26362509263551_cont_9to1_631_7_alg».proof.Proof.Gen.ReferenceIdeal
import proofs.«108312_g26362509263551_cont_9to1_631_7_alg».proof.Proof.Gen.ReferenceIdeal.Run
import proofs.«108312_g26362509263551_cont_9to1_631_7_alg».proof.Proof.Gen.ReferenceIdeal.Read
import proofs.«108312_g26362509263551_cont_9to1_631_7_alg».proof.Proof.Gen.Pre_finite_inputs
import proofs.«108312_g26362509263551_cont_9to1_631_7_alg».proof.Proof.Result
import proofs.«108312_g26362509263551_cont_9to1_631_7_alg».proof.Proof.RefIsSpec
import Idealize.ShloMosaic.Adequacy
import Idealize.ShloMosaic.Init

noncomputable section

namespace Cert.Proof

open Idealize.ShloMosaic Idealize.SL.Sem

/-- The word-level kernel runs and keeps its arguments. -/
theorem frame_k [Cert.Kernel.Facts] [Cert.Pre_finite_inputs.Facts] : Cert.frame_Kernel :=
  fun m ρ _ => Cert.Kernel.Gen.frame m ρ

/-- The idealized kernel runs and keeps its arguments. -/
theorem frame_ki [Cert.KernelIdeal.Facts] [Cert.Pre_finite_inputs.Facts] : Cert.frame_KernelIdeal :=
  fun m ρ _ => Cert.KernelIdeal.Gen.frame m ρ

/-- The idealized reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

/-- From memories agreeing on the arguments both idealized programs end with the specification's class scores
    of those arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefSpec.out_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
